-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x2048 : Shape := ⟨2, ![2048, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_

variable [Facts]

def fn {F : FTy → Type} [FloatOps F] (main_arg0 : FVec F S8192x2048 .f32) (main_arg1 : FVec F S2048x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  main_v8
-- ==== Kernel.lean ====
abbrev S8192x2048 : Shape := ⟨2, ![8192, 2048]⟩
abbrev S2048x2048 : Shape := ⟨2, ![2048, 2048]⟩
abbrev S2048x256 : Shape := ⟨2, ![2048, 256]⟩
abbrev S512x2048 : Shape := ⟨2, ![512, 2048]⟩

abbrev nBuf : Space → Nat
  | .hbm => 4
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048x2048, .bf16⟩
  | .hbm, ⟨3, _⟩ => ⟨S8192x2048, .f32⟩
  | .local _ .vmem, ⟨0, _⟩ => ⟨S2048x256, .f32⟩
  | .local _ .vmem, ⟨1, _⟩ => ⟨S2048x256, .f32⟩
  | .local _ .vmem, ⟨2, _⟩ => ⟨S2048x256, .bf16⟩
  | .local _ .vmem, ⟨3, _⟩ => ⟨S2048x256, .bf16⟩
  | .local _ .vmem, ⟨4, _⟩ => ⟨S512x2048, .f32⟩
  | .local _ .vmem, ⟨5, _⟩ => ⟨S512x2048, .f32⟩
  | .local _ .vmem, ⟨6, _⟩ => ⟨S2048x2048, .bf16⟩
  | .local _ .vmem, ⟨7, _⟩ => ⟨S512x2048, .f32⟩
  | .local _ .vmem, ⟨8, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S2048x256_S2048x256_0_0 : ∀ a, (![0, 0] : Fin 2 → Nat) a + S2048x256.size a ≤ S2048x256.size a
  h_S2048x256 : 0 < S2048x256.numel
  bitsLt_bf16_f32 : FTy.bits .bf16 < FTy.bits .f32
  packedbf16_S2048x256_S2048x256_0_0 : (Rect.unit (s := S2048x256) ![0, 0] S2048x256.size inb_S2048x256_S2048x256_0_0).PackedRows (EltTy.packing .bf16)
  inb_S512x2048_S512x2048_0_0 : ∀ a, (![0, 0] : Fin 2 → Nat) a + S512x2048.size a ≤ S512x2048.size a
  h_S512x2048 : 0 < S512x2048.numel
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  dot_S512x2048_S2048x2048_S512x2048_1_0_0_1_n_n_wf : DotDims.WF S512x2048 S2048x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S2048x2048.size a
  hwx0_0 : ∀ i : grid0.Coords, EltTy.bits .f32 = 32 ∨ (Rect.block (s := S2048x2048) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S2048x2048.size a
  hwx0_1 : ∀ i : grid0.Coords, EltTy.bits .bf16 = 32 ∨ (Rect.block (s := S2048x2048) S2048x256.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S8192x2048.size a
  hwx1_0 : ∀ i : grid1.Coords, EltTy.bits .f32 = 32 ∨ (Rect.block (s := S8192x2048) S512x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x2048.size a ≤ S2048x2048.size a
  hwx1_1 : ∀ i : grid1.Coords, EltTy.bits .bf16 = 32 ∨ (Rect.block (s := S2048x2048) S2048x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x2048.size a ≤ S8192x2048.size a
  hwx1_2 : ∀ i : grid1.Coords, EltTy.bits .f32 = 32 ∨ (Rect.block (s := S8192x2048) S512x2048.size (cc1_transform_2 i) (hinb1_2 i)).WholeWords (EltTy.packing .f32)

variable [Facts₀]

def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf

abbrev win0_0 : Pipeline.Window sig grid0 :=
  Pipeline.Window.ofSpec (Memref.whole main_arg1) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2048x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S512x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S2048x2048, .i1⟩
  | .hbm, ⟨6, _⟩ => ⟨S_, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_cst_1 : Ref sig .tc := ⟨.hbm, 7, rfl⟩
abbrev main_call0_v0 : Ref sig .tc := ⟨.hbm, 8, rfl⟩
abbrev main_call0_v1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩

abbrev nD : Nat := 1
abbrev τ : Topo := Topo.v7x

variable {F : FTy → Type} [FloatOps F]

class Facts₀ : Prop where
  bcast_S_S2048x2048 : S_.BroadcastsInDim S2048x2048 (![] : Fin 0 → Fin S2048x2048.rank)
  dot_S8192x2048_S2048x2048_S8192x2048_1_0_0_1_n_n_wf : DotDims.WF S8192x2048 S2048x2048 S8192x2048 [1] [0] [0] [1] [] []

variable [Facts₀]

def dot_S8192x2048_S2048x2048_S8192x2048_1_0_0_1_n_n : DotDims S8192x2048 S2048x2048 S8192x2048 where
  lhsContracting := [1]
  rhsContracting := [0]
  lhsNonContracting := [0]
  rhsNonContracting := [1]
  lhsBatch := []
  rhsBatch := []
  wf := dot_S8192x2048_S2048x2048_S8192x2048_1_0_0_1_n_n_wf

class Facts : Prop extends Facts₀ where

variable [Facts]
-- ==== Proof.Spec.lean ====
/-
  The function both programs compute, on the extended reals.

  A weight `w` is replaced by its sign pattern `σ(w)`: `1` where `tanh w ≥ 0` and `-1` elsewhere (the three
  numbers `0`, `1`, `-1` enter as the binary32 words the programs spell, so neither side ever evaluates them).
  The result is the matrix product of the input with the matrix of sign patterns,
      out[r, c] = Σ_k x[r, k] · σ(w[k, c]),   r < 8192, k < 2048, c < 2048,
  a finite sum in the extended reals; only commutativity-free bookkeeping of indices is needed to recognise it on both
  sides, so no finiteness of the inputs is used anywhere.
-/
import Idealize.ShloMosaic.PureOps.Ideal
import Idealize.ShloMosaic.Lib.ValueIdx

noncomputable section

open scoped BigOperators

namespace Cert.BinLinear

open Idealize.ShloMosaic Idealize.ShloMosaic.ValueIdx

/-- The weight matrix's index type, [2048, 2048]. -/
abbrev SW : Shape := ⟨2, ![2048, 2048]⟩
/-- The input's and the result's index type, [8192, 2048]. -/
abbrev SX : Shape := ⟨2, ![8192, 2048]⟩

/-- The sign pattern of one weight: `1` where `tanh w ≥ 0`, `-1` elsewhere. `tanh` is the extended reals' (`-1` at `⊥`,
    `1` at `⊤`), the comparison the ordered one. -/
def sgn (w : EReal) : EReal :=
  Scalar.select (FloatOps.cmpf (F := Ideal) (φ := .f32) .oge (Ideal.tanh w) (Ideal.ofBits .f32 0x00000000#32))
    (Ideal.ofBits .f32 0x3F800000#32) (Ideal.ofBits .f32 0xBF800000#32)

/-- The matrix of sign patterns. -/
def binW (w : SW.Idx → EReal) : SW.Idx → EReal := fun j => sgn (w j)

/-- The product of an [8192, 2048] matrix with a [2048, 2048] one, entry by entry: row `r` of the first against
    column `c` of the second. -/
def prod (x : SX.Idx → EReal) (b : SW.Idx → EReal) : SX.Idx → EReal :=
  fun i => ∑ k : Fin 2048, x (ix2 (i 0) k) * b (ix2 k (i 1))

/-- The result: the input times the matrix of sign patterns of the weight. -/
def out (x : SX.Idx → EReal) (w : SW.Idx → EReal) : SX.Idx → EReal := prod x (binW w)

end Cert.BinLinear

end
-- ==== Proof.RefValue.lean ====
/-
  The reference computes the specification.

  Its weight stage is tanh, a comparison with the splat 0, a select between the splats 1 and -1 and a change of type
  that is the identity: entry by entry the sign pattern. Its last stage is the contraction of the input's second axis
  with that matrix's first: entry (r, c) is Σ_k x[r, k] · σ(w[k, c]).
-/
import proofs.«122271_j81389630259625_1_alg».proof.Proof.Gen.ReferenceIdeal.Read
import proofs.«122271_j81389630259625_1_alg».proof.Proof.Spec

noncomputable section

open scoped BigOperators

namespace Cert.BinLinear

open Idealize.ShloMosaic Idealize.ShloMosaic.ValueIdx Cert.ReferenceIdeal Cert.ReferenceIdeal.Read

/-- The reference's binarized weight, entry by entry: the sign pattern. -/
theorem ref_sgn (w : (⟨S2048x2048, .f32⟩ : BufTy).Contents (Elt Ideal)) (j : S2048x2048.Idx) :
    val_main_v4 (F := Ideal) w j = sgn (w j) := by
  rw [val_main_v4_apply, val_main_v3_apply, val_main_v2_apply, val_main_v0_apply, val_main_v1_apply, val_main_cst_apply,
    val_main_call0_v0_apply, val_main_cst_0_apply, val_main_call0_v1_apply, val_main_cst_1_apply]
  rfl

/-- The reference's result is the specification of its two arguments. -/
theorem ref_eq (x : (⟨S8192x2048, .f32⟩ : BufTy).Contents (Elt Ideal)) (w : (⟨S2048x2048, .f32⟩ : BufTy).Contents (Elt Ideal)) :
    val_main_v5 (F := Ideal) x w = out x w := by
  refine funext fun (i : S8192x2048.Idx) => ?_
  rw [val_main_v5_apply]
  show _ = ∑ k : Fin 2048, x (ix2 (i 0) k) * sgn (w (ix2 k (i 1)))
  refine Finset.sum_congr rfl fun k _ => ?_
  have el : lidx_main_v5 i k = ix2 (i 0) k := funext fun a => by
    match a with
    | ⟨0, _⟩ => rfl
    | ⟨1, _⟩ => rfl
  have er : ridx_main_v5 i k = ix2 k (i 1) := funext fun a => by
    match a with
    | ⟨0, _⟩ => rfl
    | ⟨1, _⟩ => rfl
  rw [el, er]
  exact congrArg (x (ix2 (i 0) k) * ·) (ref_sgn w (ix2 k (i 1)))

end Cert.BinLinear

end
-- ==== Proof.Payload.lean ====
/-
  The two kernel bodies' arithmetic, read at an index, on the extended reals.

  The first body maps a block of weights to its sign patterns, entry by entry (a change of float format is the
  identity). The second multiplies a [512, 2048] block of the input with the whole [2048, 2048] matrix into a zero
  accumulator: entry (p, q) is Σ_k x0[p, k] · x1[k, q], the one contracted axis re-indexed by its coordinate.
-/
import proofs.«122271_j81389630259625_1_alg».proof.Proof.Gen.KernelIdeal.Skeleton
import proofs.«122271_j81389630259625_1_alg».proof.Proof.Spec
import Idealize.ShloMosaic.Lib.Pipeline.Value
import Idealize.ShloMosaic.Lib.ValueIdx
import Idealize.ShloMosaic.PureOps.Ideal.Laws

noncomputable section

open scoped BigOperators

namespace Cert.BinLinear

open Idealize.ShloMosaic Idealize.ShloMosaic.ValueIdx Cert.KernelIdeal Cert.KernelIdeal.Gen

/-- The binarizing body, entry by entry: the sign pattern of the loaded weight. -/
theorem sgn_pay (x : Vec Ideal S2048x256 .f32) (j : S2048x256.Idx) : k0_pay1 (F := Ideal) x j = sgn (x j) := rfl

/-! The product's operand indices, coordinate by coordinate: rows come from the output index, the contracted axis from
    the contraction index. -/

theorem lhs_row (i : S512x2048.Idx) (κ : dot_S512x2048_S2048x2048_S512x2048_1_0_0_1_n_n.contr.Idx) :
    (dot_S512x2048_S2048x2048_S512x2048_1_0_0_1_n_n.lhsIdx i κ 0).val = (i 0).val := by
  unfold DotDims.lhsIdx
  rw [dif_neg (show ¬(0 : Fin S512x2048.rank) ∈ dot_S512x2048_S2048x2048_S512x2048_1_0_0_1_n_n.lhsBatch by decide),
    dif_pos (show (0 : Fin S512x2048.rank) ∈ dot_S512x2048_S2048x2048_S512x2048_1_0_0_1_n_n.lhsNonContracting by decide)]
  rfl
theorem lhs_contr (i : S512x2048.Idx) (κ : dot_S512x2048_S2048x2048_S512x2048_1_0_0_1_n_n.contr.Idx) :
    (dot_S512x2048_S2048x2048_S512x2048_1_0_0_1_n_n.lhsIdx i κ 1).val = (κ ⟨0, by decide⟩).val :=
  dot_S512x2048_S2048x2048_S512x2048_1_0_0_1_n_n.lhsIdx_val_of_single rfl i κ
theorem rhs_contr (i : S512x2048.Idx) (κ : dot_S512x2048_S2048x2048_S512x2048_1_0_0_1_n_n.contr.Idx) :
    (dot_S512x2048_S2048x2048_S512x2048_1_0_0_1_n_n.rhsIdx i κ 0).val = (κ ⟨0, by decide⟩).val :=
  dot_S512x2048_S2048x2048_S512x2048_1_0_0_1_n_n.rhsIdx_val_of_single rfl i κ
theorem rhs_col (i : S512x2048.Idx) (κ : dot_S512x2048_S2048x2048_S512x2048_1_0_0_1_n_n.contr.Idx) :
    (dot_S512x2048_S2048x2048_S512x2048_1_0_0_1_n_n.rhsIdx i κ 1).val = (i 1).val := by
  unfold DotDims.rhsIdx
  rw [dif_neg (show ¬(1 : Fin S2048x2048.rank) ∈ dot_S512x2048_S2048x2048_S512x2048_1_0_0_1_n_n.rhsBatch by decide),
    dif_pos (show (1 : Fin S2048x2048.rank) ∈ dot_S512x2048_S2048x2048_S512x2048_1_0_0_1_n_n.rhsNonContracting by decide)]
  rfl

/-- The multiplying body at entry (p, q): the sum over the contracted coordinate of the block's row `p` against the
    matrix's column `q`. -/
theorem prod_pay (x0 : FVec Ideal S512x2048 .f32) (x1 : FVec Ideal S2048x2048 .bf16) (p : Fin 512) (q : Fin 2048) :
    k1_pay1 (F := Ideal) x0 x1 (ix2 p q) = ∑ k : Fin 2048, x0 (ix2 p k) * x1 (ix2 k q) := by
  unfold k1_pay1
  show FloatOps.matmul dot_S512x2048_S2048x2048_S512x2048_1_0_0_1_n_n none (truncf .bf16 x0 bitsLt_bf16_f32)
    (shapeCast S2048x2048 x1 shapeCasts_S2048x2048_S2048x2048) (constant S512x2048 .f32 0x00000000#32) (ix2 p q) = _
  rw [shapeCast_self, Ideal.matmul_constant_zero_apply,
    ← Equiv.sum_comp (contrEquiv1 dot_S512x2048_S2048x2048_S512x2048_1_0_0_1_n_n 2048 rfl rfl).symm]
  refine Finset.sum_congr rfl fun k _ => ?_
  have hk := contrEquiv1_symm_val dot_S512x2048_S2048x2048_S512x2048_1_0_0_1_n_n 2048 rfl rfl k
  have el : dot_S512x2048_S2048x2048_S512x2048_1_0_0_1_n_n.lhsIdx (ix2 p q)
      ((contrEquiv1 dot_S512x2048_S2048x2048_S512x2048_1_0_0_1_n_n 2048 rfl rfl).symm k) = ix2 p k :=
    funext fun a => Fin.ext (by
      match a with
      | ⟨0, _⟩ => exact lhs_row _ _
      | ⟨1, _⟩ => exact (lhs_contr _ _).trans hk)
  have er : dot_S512x2048_S2048x2048_S512x2048_1_0_0_1_n_n.rhsIdx (ix2 p q)
      ((contrEquiv1 dot_S512x2048_S2048x2048_S512x2048_1_0_0_1_n_n 2048 rfl rfl).symm k) = ix2 k q :=
    funext fun a => Fin.ext (by
      match a with
      | ⟨0, _⟩ => exact (rhs_contr _ _).trans hk
      | ⟨1, _⟩ => exact rhs_col _ _)
  rw [el, er]
  rfl

end Cert.BinLinear

end
-- ==== Proof.Binarize.lean ====
/-
  The first region: the weight matrix, binarized.

  The grid has eight points; point `t` reads the block of all 2048 rows and columns [256·t, 256·t + 256) of the weight
  and writes the sign patterns of its entries to the same rows and columns of the result. So what each point writes
  back is its block of the matrix of sign patterns, the eight column blocks cover the whole matrix (column `c` lies in
  block `c / 256`), and the array the region leaves is the matrix of sign patterns of the weight as the region found it.
-/
import proofs.«122271_j81389630259625_1_alg».proof.Proof.Gen.KernelIdeal.Frame
import proofs.«122271_j81389630259625_1_alg».proof.Proof.Payload
import Idealize.ShloMosaic.Lib.Pipeline.Value

set_option maxRecDepth 16384

noncomputable section

namespace Cert.BinLinear

open Idealize.ShloMosaic Idealize.ShloMosaic.TcCoe Idealize.SL.Sem Idealize.ShloMosaic.ValueIdx
open Cert.KernelIdeal Cert.KernelIdeal.Gen
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- Both windows of the first region sit at row block 0 and column block `t` (decided over the eight points). -/
theorem wb_index : ∀ t : Fin cfg0.N, win0_0.index t (0 : Fin 2) = 0 ∧ win0_0.index t (1 : Fin 2) = t.val
    ∧ win0_1.index t (0 : Fin 2) = 0 ∧ win0_1.index t (1 : Fin 2) = t.val :=
  (by decide +kernel : ∀ t : Fin grid0.N, _)

/-- What point `t` writes back is block `t` of the matrix of sign patterns of the weight. -/
theorem wb_flushed (c : Dev nD) (t : Fin cfg0.N) :
    (dat0 V c).flushed 1 t = ((cfg0.win 1).blk t).view.read (Elt Ideal) (binW (V c main_arg1)) := by
  show (cfg0.win 1).cut (grid0.coords t) ((dat0 V c).after 1 t) = _
  rw [after0_1]
  unfold out0_1
  rw [View.canon_unit_zero zero_offsets]
  simp only [View.ld_unit_zero (S := S2048x256) zero_offsets]
  obtain ⟨e0, e1, e2, e3⟩ := wb_index t
  funext j
  show sgn (V c main_arg1 (((cfg0.win 0).blk t).view.emb j)) = sgn (V c main_arg1 (((cfg0.win 1).blk t).view.emb j))
  have h : ((cfg0.win 0).blk t).view.emb j = ((cfg0.win 1).blk t).view.emb j := by
    funext a; apply Fin.ext
    match a with
    | ⟨0, _⟩ => show win0_0.index t (0 : Fin 2) * 2048 + 1 * (j 0).val = win0_1.index t (0 : Fin 2) * 2048 + 1 * (j 0).val; omega
    | ⟨1, _⟩ => show win0_0.index t (1 : Fin 2) * 256 + 1 * (j 1).val = win0_1.index t (1 : Fin 2) * 256 + 1 * (j 1).val; omega
  rw [h]

/-- An entry lies in point `t`'s block iff each coordinate lies in the block's range on its axis. -/
theorem wb_mem (t : Fin cfg0.N) (i : S2048x2048.Idx) :
    i ∈ ((cfg0.win 1).blk t).view.set ↔ ∀ a : Fin 2, win0_1.index t a * S2048x256.size a ≤ (i a).val
      ∧ (i a).val < win0_1.index t a * S2048x256.size a + S2048x256.size a := by
  show i ∈ ((View.whole main_v0).slice (win0_1.rect t)).set ↔ _
  rw [View.set_slice_whole, Rect.mem_set_unit]
  exact Iff.rfl

/-- Every entry is in the block of the point numbered by its column block. -/
theorem wb_cover (i : S2048x2048.Idx) : ∃ t : Fin cfg0.N, (cfg0.win 1).flush t = true ∧ i ∈ ((cfg0.win 1).blk t).view.set := by
  have hi0 : (i 0).val < 2048 := (i 0).isLt
  have hi1 : (i 1).val < 2048 := (i 1).isLt
  obtain ⟨t, ht⟩ : ∃ t : Fin cfg0.N, t.val = (i 1).val / 256 :=
    ⟨⟨(i 1).val / 256, by show _ < grid0.N; rw [N_0]; omega⟩, rfl⟩
  obtain ⟨e0, e1, e2, e3⟩ := wb_index t
  refine ⟨t, flush0_1 t, ?_⟩
  rw [wb_mem]
  intro a
  match a with
  | ⟨0, _⟩ => show win0_1.index t (0 : Fin 2) * 2048 ≤ (i 0).val ∧ (i 0).val < win0_1.index t (0 : Fin 2) * 2048 + 2048; omega
  | ⟨1, _⟩ => show win0_1.index t (1 : Fin 2) * 256 ≤ (i 1).val ∧ (i 1).val < win0_1.index t (1 : Fin 2) * 256 + 256; omega

/-- The array the first region leaves: the matrix of sign patterns of the weight as the region found it. -/
theorem wb_final (c : Dev nD) : (dat0 V c).arrAt 1 cfg0.N = binW (V c main_arg1) :=
  (dat0 V c).arrAt_eq_of_cover 1 (binW (V c main_arg1)) (fun t _ => wb_flushed V c t) wb_cover

end Cert.BinLinear

end
-- ==== Proof.Product.lean ====
/-
  The second region: the matrix product.

  The grid has sixteen points; point `t` reads rows [512·t, 512·t + 512) of the input (all 2048 columns) and the WHOLE
  [2048, 2048] second operand, and writes their product to the same rows of the result. Entry (p, q) of the block's
  product is Σ_k block[p, k] · operand[k, q], and block[p, k] is the input at row 512·t + p: so what each point writes
  back is its block of the product of the two arrays as the region found them, the sixteen row blocks cover the result
  (row `r` lies in block `r / 512`), and the array the region leaves is that product.
-/
import proofs.«122271_j81389630259625_1_alg».proof.Proof.Gen.KernelIdeal.Frame
import proofs.«122271_j81389630259625_1_alg».proof.Proof.Payload
import proofs.«122271_j81389630259625_1_alg».proof.Proof.Binarize
import Idealize.ShloMosaic.Lib.Pipeline.Value

set_option maxRecDepth 16384

noncomputable section

open scoped BigOperators

namespace Cert.BinLinear

open Idealize.ShloMosaic Idealize.ShloMosaic.TcCoe Idealize.SL.Sem Idealize.ShloMosaic.ValueIdx
open Cert.KernelIdeal Cert.KernelIdeal.Gen
open Idealize.ShloMosaic.Pipeline (Dat)

variable (V : (c : Dev nD) → (b : Ref sig .tc) → Buf (Elt Ideal) ((c : Thread nD τ).loc b))

/-- A block's row against the second operand's column is an entry of the product, once the block's row is a row of
    the first array and the operand's column a column of the second. -/
theorem block_prod (A : SX.Idx → EReal) (B : SW.Idx → EReal) (x0 : S512x2048.Idx → EReal) (x1 : S2048x2048.Idx → EReal)
    (i : SX.Idx) (p : Fin 512) (q : Fin 2048)
    (h0 : ∀ k : Fin 2048, x0 (ix2 p k) = A (ix2 (i 0) k)) (h1 : ∀ k : Fin 2048, x1 (ix2 k q) = B (ix2 k (i 1))) :
    ∑ k : Fin 2048, x0 (ix2 p k) * x1 (ix2 k q) = prod A B i :=
  Finset.sum_congr rfl fun k _ => by rw [h0, h1]

/-- The input's and the result's windows sit at row block `t`, the second operand's at its one block (decided over the
    sixteen points). -/
theorem mm_index : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the product of the two arrays the region reads. -/
theorem mm_flushed (c : Dev nD) (t : Fin cfg1.N) :
    (dat1 V c).flushed 2 t = ((cfg1.win 2).blk t).view.read (Elt Ideal) (prod (V c main_arg0) (V c main_v0)) := by
  show (cfg1.win 2).cut (grid1.coords t) ((dat1 V c).after 2 t) = _
  rw [after1_2]
  unfold out1_2
  rw [View.canon_unit_zero zero_offsets]
  simp only [View.ld_unit_zero (S := S512x2048) zero_offsets, View.ld_unit_zero (S := S2048x2048) zero_offsets]
  obtain ⟨e0, e1, e2, e3, e4, e5⟩ := mm_index t
  refine funext fun (j : S512x2048.Idx) => ?_
  obtain ⟨p, q, rfl⟩ : ∃ (p : Fin 512) (q : Fin 2048), j = ix2 p q := ⟨j 0, j 1, eq_ix2 j⟩
  refine (prod_pay (iblk1 V c 0 t) (iblk1 V c 1 t) p q).trans ?_
  refine block_prod (V c main_arg0) (V c main_v0) (iblk1 V c 0 t) (iblk1 V c 1 t)
    (((cfg1.win 2).blk t).view.emb (ix2 p q)) p q (fun k => ?_) (fun k => ?_)
  · have h0 : ((cfg1.win 0).blk t).view.emb (ix2 p k) = ix2 ((((cfg1.win 2).blk t).view.emb (ix2 p q)) 0) k := by
      funext a; apply Fin.ext
      match a with
      | ⟨0, _⟩ => show win1_0.index t (0 : Fin 2) * 512 + 1 * p.val = win1_2.index t (0 : Fin 2) * 512 + 1 * p.val; omega
      | ⟨1, _⟩ => show win1_0.index t (1 : Fin 2) * 2048 + 1 * k.val = k.val; omega
    show V c main_arg0 (((cfg1.win 0).blk t).view.emb (ix2 p k)) = _
    rw [h0]
    rfl
  · have h1 : ((cfg1.win 1).blk t).view.emb (ix2 k q) = ix2 k ((((cfg1.win 2).blk t).view.emb (ix2 p q)) 1) := by
      funext a; apply Fin.ext
      match a with
      | ⟨0, _⟩ => show win1_1.index t (0 : Fin 2) * 2048 + 1 * k.val = k.val; omega
      | ⟨1, _⟩ => show win1_1.index t (1 : Fin 2) * 2048 + 1 * q.val = win1_2.index t (1 : Fin 2) * 2048 + 1 * q.val; omega
    show V c main_v0 (((cfg1.win 1).blk t).view.emb (ix2 k q)) = _
    rw [h1]
    rfl

/-- An entry lies in point `t`'s block iff each coordinate lies in the block's range on its axis. -/
theorem mm_mem (t : Fin cfg1.N) (i : S8192x2048.Idx) :
    i ∈ ((cfg1.win 2).blk t).view.set ↔ ∀ a : Fin 2, win1_2.index t a * S512x2048.size a ≤ (i a).val
      ∧ (i a).val < win1_2.index t a * S512x2048.size a + S512x2048.size a := by
  show i ∈ ((View.whole main_v1).slice (win1_2.rect t)).set ↔ _
  rw [View.set_slice_whole, Rect.mem_set_unit]
  exact Iff.rfl

/-- Every entry is in the block of the point numbered by its row block. -/
theorem mm_cover (i : S8192x2048.Idx) : ∃ t : Fin cfg1.N, (cfg1.win 2).flush t = true ∧ i ∈ ((cfg1.win 2).blk t).view.set := by
  have hi0 : (i 0).val < 8192 := (i 0).isLt
  have hi1 : (i 1).val < 2048 := (i 1).isLt
  obtain ⟨t, ht⟩ : ∃ t : Fin cfg1.N, t.val = (i 0).val / 512 :=
    ⟨⟨(i 0).val / 512, by show _ < grid1.N; rw [N_1]; omega⟩, rfl⟩
  obtain ⟨e0, e1, e2, e3, e4, e5⟩ := mm_index t
  refine ⟨t, flush1_2 t, ?_⟩
  rw [mm_mem]
  intro a
  match a with
  | ⟨0, _⟩ => show win1_2.index t (0 : Fin 2) * 512 ≤ (i 0).val ∧ (i 0).val < win1_2.index t (0 : Fin 2) * 512 + 512; omega
  | ⟨1, _⟩ => show win1_2.index t (1 : Fin 2) * 2048 ≤ (i 1).val ∧ (i 1).val < win1_2.index t (1 : Fin 2) * 2048 + 2048; omega

/-- The array the second region leaves: the product of the input and the second operand as the region found them. -/
theorem mm_final (c : Dev nD) : (dat1 V c).arrAt 2 cfg1.N = prod (V c main_arg0) (V c main_v0) :=
  (dat1 V c).arrAt_eq_of_cover 2 (prod (V c main_arg0) (V c main_v0)) (fun t _ => mm_flushed V c t) mm_cover

end Cert.BinLinear

end
-- ==== Proof.KernelRun.lean ====
/-
  The kernel's run with its result named, and the result as the specification.

  The program is two regions in a row with no host operation between or after them. Its run from the launch memory
  passes three boundaries: the launch contents, the contents after the first region (the binarized weight written,
  every other buffer as before) and the contents after the second (the product written, every other buffer as before).
  Every weakly fair execution terminates in a memory that agrees with the last boundary on every buffer outside the
  regions' scopes — the two arguments and the result among them.

  Reading the last boundary back: the result is the second region's product of what it found in the input and in the
  intermediate buffer; the input is untouched by the first region, so it is the launch input; the intermediate buffer is
  what the first region left, the sign patterns of the launch weight. Hence the result is the input times the matrix of
  sign patterns of the weight.
-/
import proofs.«122271_j81389630259625_1_alg».proof.Proof.Gen.KernelIdeal.Frame
import proofs.«122271_j81389630259625_1_alg».proof.Proof.Binarize
import proofs.«122271_j81389630259625_1_alg».proof.Proof.Product

set_option maxRecDepth 16384

noncomputable section

namespace Cert.BinLinear

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the two regions from the launch memory terminates, nothing faulting, with the result
    buffer at the last boundary's contents and the two arguments as launched: the two regions as segments between the
    three boundaries, the last thread state read against the final memory on every buffer outside the regions' scopes. -/
theorem run_named : θ_run defs (onTc (τ := τ) (main (F := F))) ⟨m, fun _ => 0, ρ⟩ (fun r => ∀ c : Dev nD,
      r.2.mem ((c.tc : Thread nD τ).loc main_v1) = W2 m ρ c (Proc.devRef .tc main_v1)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨h c _ (mem_uc main_v1 (by decide)),
       (h c _ (mem_uc main_arg0 (by decide))).trans (W2_main_arg0 m ρ c),
       (h c _ (mem_uc main_arg1 (by decide))).trans (W2_main_arg1 m ρ c)⟩)

end Run

section Value

variable (m : (ℓ : Loc nD τ sig) → Buf (Elt Ideal) ℓ) (ρ : Dev nD → PrngReg)

/-- The second region finds the launch input: the first region does not stage it. -/
theorem input_at_entry (c : Dev nD) : V1 m ρ c main_arg0 = m ((c.tc : Thread nD τ).loc main_arg0) :=
  W1_of_ne m ρ c main_arg0 (by decide)

/-- The second region finds, in the intermediate buffer, the sign patterns of the launch weight: what the first region
    left there. -/
theorem weight_at_entry (c : Dev nD) : V1 m ρ c main_v0 = binW (m ((c.tc : Thread nD τ).loc main_arg1)) :=
  (W1_arr m ρ c 1).trans (wb_final (V0 m ρ) c)

/-- The last boundary's contents at the result buffer: the specification of the launch arguments. -/
theorem result_eq (c : Dev nD) :
    W2 m ρ c (Proc.devRef .tc main_v1) = out (m ((c.tc : Thread nD τ).loc main_arg0)) (m ((c.tc : Thread nD τ).loc main_arg1)) := by
  refine (W2_arr m ρ c 2).trans ((mm_final (V1 m ρ) c).trans ?_)
  rw [input_at_entry, weight_at_entry]
  rfl

/-- The kernel's run on the extended reals: the result is the input times the matrix of sign patterns of the weight,
    the arguments unchanged. -/
theorem kernel_run : θ_run defs (onTc (τ := τ) (main (F := Ideal))) ⟨m, fun _ => 0, ρ⟩ (fun r => ∀ c : Dev nD,
      r.2.mem ((c.tc : Thread nD τ).loc main_v1) = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (result_eq m ρ c), (h c).2⟩) (run_named m ρ)

end Value

end Cert.BinLinear

end
-- ==== Proof.lean ====
/-
  The kernel binarizes a [2048, 2048] weight — each entry replaced by 1 where its tanh is at least 0 and by -1
  elsewhere — in a first grid of eight column blocks, and multiplies the [8192, 2048] input with the binarized matrix in
  a second grid of sixteen row blocks; the reference does the same with one elementwise pass and one contraction.

  On the extended reals both results are, entry by entry,
      out[r, c] = Σ_k x[r, k] · σ(w[k, c]),   σ(w) = 1 if tanh w ≥ 0, else -1        (Proof/Spec.lean).
  The kernel side: each body's arithmetic at an index (Proof/Payload.lean: the sign pattern; a block's row against the
  operand's column, the product's zero accumulator adding nothing); each region's array after its write-backs, from
  what every grid point writes and the blocks covering the array (Proof/Binarize.lean, Proof/Product.lean); and the run
  through both regions, whose second region reads what the first left (Proof/KernelRun.lean). The reference side: its
  stages read at an index (Proof/RefValue.lean). The two sums range over the same index in the same order, the
  comparison, tanh and the three constants are spelt identically, and a change of float format is the identity: no law
  of arithmetic beyond 0 + s = s is used, and so no finiteness of the inputs.

  The three frames are the programs' runs with the results forgotten; no operation was rewritten by the idealization,
  so there is nothing to preserve.
-/
import proofs.«122271_j81389630259625_1_alg».proof.Defs
import proofs.«122271_j81389630259625_1_alg».proof.Proof.Gen.Kernel
import proofs.«122271_j81389630259625_1_alg».proof.Proof.Gen.Kernel.Skeleton
import proofs.«122271_j81389630259625_1_alg».proof.Proof.Gen.Kernel.Launch
import proofs.«122271_j81389630259625_1_alg».proof.Proof.Gen.Kernel.Points
import proofs.«122271_j81389630259625_1_alg».proof.Proof.Gen.Kernel.Frame
import proofs.«122271_j81389630259625_1_alg».proof.Proof.Gen.KernelIdeal
import proofs.«122271_j81389630259625_1_alg».proof.Proof.Gen.KernelIdeal.Skeleton
import proofs.«122271_j81389630259625_1_alg».proof.Proof.Gen.KernelIdeal.Launch
import proofs.«122271_j81389630259625_1_alg».proof.Proof.Gen.KernelIdeal.Points
import proofs.«122271_j81389630259625_1_alg».proof.Proof.Gen.KernelIdeal.Frame
import proofs.«122271_j81389630259625_1_alg».proof.Proof.Gen.ReferenceIdeal
import proofs.«122271_j81389630259625_1_alg».proof.Proof.Gen.Pre_finite_inputs
import proofs.«122271_j81389630259625_1_alg».proof.Proof.Gen.ReferenceIdeal.Run
import proofs.«122271_j81389630259625_1_alg».proof.Proof.Gen.ReferenceIdeal.Read
import proofs.«122271_j81389630259625_1_alg».proof.Proof.Spec
import proofs.«122271_j81389630259625_1_alg».proof.Proof.RefValue
import proofs.«122271_j81389630259625_1_alg».proof.Proof.KernelRun
import Idealize.ShloMosaic.Adequacy
import Idealize.ShloMosaic.Init

noncomputable section

namespace Cert.Proof

open Idealize.ShloMosaic Idealize.SL.Sem

/-- The kernel as printed terminates, faults nowhere and leaves its arguments as launched. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the input times the matrix of sign patterns of the
    weight: the kernel by its run through the two regions, the reference by its stages read at an index. -/
theorem algebraic : Cert.algebraic_KernelIdeal_ReferenceIdeal := by
  intro m ρ m' ρ' _ hagree
  refine ⟨fun c => Cert.BinLinear.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.BinLinear.kernel_run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v5_eq, Cert.BinLinear.ref_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
